-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096 : Shape := ⟨2, ![256, 4096]⟩
abbrev S4096x4096 : Shape := ⟨2, ![4096, 4096]⟩
abbrev S4096x32 : Shape := ⟨2, ![4096, 32]⟩
abbrev S_ : Shape := ⟨0, ![]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel
  bcast_S_S4096x32 : S_.BroadcastsInDim S4096x32 (![] : Fin 0 → Fin S4096x32.rank)
  reducesTo_S4096x32_S_d0_1 : S4096x32.ReducesTo [0, 1] S_

variable [Facts]

def fn {F : FTy → Type} [FloatOps F] (main_arg0 : FVec F S256x4096 .f32) (main_arg1 : IVec S4096x4096 32) (main_arg2 : FVec F S4096x32 .f32) (main_arg3 : FVec F S4096x32 .f32) : IVec S_ 1 :=
  let main_v0 : FVec F S256x4096 .f32 := Host.absf main_arg0
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  let main_v4 : FVec F S4096x32 .f32 := Host.absf main_arg2
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096x32 .f32 := Host.absf main_arg3
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  main_v13
-- ==== Kernel.lean ====
abbrev S256x4096 : Shape := ⟨2, ![256, 4096]⟩
abbrev S4096x4096 : Shape := ⟨2, ![4096, 4096]⟩
abbrev S4096x32 : Shape := ⟨2, ![4096, 32]⟩
abbrev S32x4096 : Shape := ⟨2, ![32, 4096]⟩
abbrev S256x1024 : Shape := ⟨2, ![256, 1024]⟩
abbrev S1024x1024 : Shape := ⟨2, ![1024, 1024]⟩
abbrev S8x1024 : Shape := ⟨2, ![8, 1024]⟩
abbrev S1024x8 : Shape := ⟨2, ![1024, 8]⟩
abbrev S1024x8x128 : Shape := ⟨3, ![1024, 8, 128]⟩
abbrev S1024x8x1 : Shape := ⟨3, ![1024, 8, 1]⟩

abbrev nBuf : Space → Nat
  | .hbm => 7
  | .vmem => 10
  | .smem => 0
  | _ => 0

abbrev bufTy : (tb : Table) → Fin (tcTables nBuf tb) → BufTy
  | .hbm, ⟨0, _⟩ => ⟨S256x4096, .f32⟩
  | .hbm, ⟨1, _⟩ => ⟨S4096x4096, .i32⟩
  | .hbm, ⟨2, _⟩ => ⟨S4096x32, .f32⟩
  | .hbm, ⟨3, _⟩ => ⟨S4096x32, .f32⟩
  | .hbm, ⟨4, _⟩ => ⟨S32x4096, .f32⟩
  | .hbm, ⟨5, _⟩ => ⟨S32x4096, .f32⟩
  | .hbm, ⟨6, _⟩ => ⟨S256x4096, .f32⟩
  | .local _ .vmem, ⟨0, _⟩ => ⟨S256x1024, .f32⟩
  | .local _ .vmem, ⟨1, _⟩ => ⟨S256x1024, .f32⟩
  | .local _ .vmem, ⟨2, _⟩ => ⟨S1024x1024, .i32⟩
  | .local _ .vmem, ⟨3, _⟩ => ⟨S1024x1024, .i32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S256x1024, .f32⟩
  | .local _ .vmem, ⟨9, _⟩ => ⟨S256x1024, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S4096x32_S32x4096_1_0 : S4096x32.Transposes [1, 0] S32x4096
  inb_S256x1024_S256x1024_0_0 : ∀ a, (![0, 0] : Fin 2 → Nat) a + S256x1024.size a ≤ S256x1024.size a
  h_S256x1024 : 0 < S256x1024.numel
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  transposes_S8x1024_p1_0_S1024x8 : S8x1024.Transposes [1, 0] S1024x8
  inb_S1024x1024_S1024x1024_0_0 : ∀ a, (![0, 0] : Fin 2 → Nat) a + S1024x1024.size a ≤ S1024x1024.size a
  h_S1024x1024 : 0 < S1024x1024.numel
  shapeCasts_S1024x1024_S1024x8x128 : S1024x1024.ShapeCasts S1024x8x128
  shapeCasts_S1024x8_S1024x8x1 : S1024x8.ShapeCasts S1024x8x1
  broadcasts_S1024x8x1_S1024x8x128 : S1024x8x1.Broadcasts S1024x8x128
  shapeCasts_S1024x8x128_S1024x1024 : S1024x8x128.ShapeCasts S1024x1024
  shapeCasts_S256x1024_S256x1024 : S256x1024.ShapeCasts S256x1024
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x4096.size a
  hwx0_0 : ∀ i : grid0.Coords, EltTy.bits .f32 = 32 ∨ (Rect.block (s := S256x4096) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .i32 = 32 ∨ (Rect.block (s := S4096x4096) S1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S32x4096.size a
  hwx0_2 : ∀ i : grid0.Coords, EltTy.bits .f32 = 32 ∨ (Rect.block (s := S32x4096) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S32x4096.size a
  hwx0_3 : ∀ i : grid0.Coords, EltTy.bits .f32 = 32 ∨ (Rect.block (s := S32x4096) S8x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x4096.size a
  hwx0_4 : ∀ i : grid0.Coords, EltTy.bits .f32 = 32 ∨ (Rect.block (s := S256x4096) S256x1024.size (cc0_transform_4 i) (hinb0_4 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x4096 : Shape := ⟨2, ![256, 4096]⟩
abbrev S4096x4096 : Shape := ⟨2, ![4096, 4096]⟩
abbrev S4096x32 : Shape := ⟨2, ![4096, 32]⟩
abbrev S4096x32x128 : Shape := ⟨3, ![4096, 32, 128]⟩

abbrev nBuf : Space → Nat
  | .hbm => 12
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S4096x4096, .i32⟩
  | .hbm, ⟨2, _⟩ => ⟨S4096x32, .f32⟩
  | .hbm, ⟨3, _⟩ => ⟨S4096x32, .f32⟩
  | .hbm, ⟨4, _⟩ => ⟨S4096x32x128, .f32⟩
  | .hbm, ⟨5, _⟩ => ⟨S4096x4096, .f32⟩
  | .hbm, ⟨6, _⟩ => ⟨S4096x32x128, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S256x4096, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S4096x32_S4096x32x128_0_1 : S4096x32.BroadcastsInDim S4096x32x128 (![0, 1] : Fin 2 → Fin S4096x32x128.rank)
  shapeCasts_S4096x32x128_S4096x4096 : S4096x32x128.ShapeCasts S4096x4096
  dot_S256x4096_S4096x4096_S256x4096_1_1_0_0_n_n_wf : DotDims.WF S256x4096 S4096x4096 S256x4096 [1] [1] [0] [0] [] []

variable [Facts₀]

def dot_S256x4096_S4096x4096_S256x4096_1_1_0_0_n_n : DotDims S256x4096 S4096x4096 S256x4096 where
  lhsContracting := [1]
  rhsContracting := [1]
  lhsNonContracting := [0]
  rhsNonContracting := [0]
  lhsBatch := []
  rhsBatch := []
  wf := dot_S256x4096_S4096x4096_S256x4096_1_1_0_0_n_n_wf

class Facts : Prop extends Facts₀ where

variable [Facts]
-- ==== Proof.LibGroupAxis.lean ====
/-
  A trailing axis cut into groups, and a per-group value spread along a group.

  An array of shape [a, n] whose second axis has n = g · l positions can be viewed as [a, g, l]: position k of the long
  axis is position q of group p exactly when k = p · l + q. Both directions of that view are reshapes that keep the
  row-major order, so reading the reshaped array at an index is reading the source at the index with the same row-major
  position:
    * split_apply — [a, n] viewed as [a, g, l], read at (i, p, q), is the source at (i, k) when k = p · l + q;
    * merge_apply — [a, g, l] viewed as [a, n], read at (i, k), is the source at (i, p, q) when k = p · l + q.
  A value given per (row, group) — an [a, g] array — is spread along each group by adding a trailing unit axis and
  broadcasting it:
    * unit_apply — [a, g] viewed as [a, g, 1], read at (i, p, 0), is the source at (i, p);
    * spread_apply — [a, g, 1] broadcast to [a, g, l], read at (i, p, q), is the source at (i, p, 0);
    * column_apply — the two composed: read at (i, p, q) it is the [a, g] source at (i, p), whatever q.
-/
import Idealize.ShloMosaic.Lib.Pipeline.Value
import Idealize.ShloMosaic.Lib.ValueIdx

namespace Cert.Lib.GroupAxis

open Idealize.ShloMosaic Idealize.ShloMosaic.ValueIdx

variable {α : Type}

/-- [a, n] viewed as [a, g, l] (n = g · l), read at (i, p, q), is the source at (i, k) with k = p · l + q. -/
theorem split_apply {a g l n : ℕ} (hn : n = g * l) (x : (⟨2, ![a, n]⟩ : Shape).Idx → α)
    (h : (⟨2, ![a, n]⟩ : Shape).ShapeCasts ⟨3, ![a, g, l]⟩) (i : Fin a) (p : Fin g) (q : Fin l) (k : Fin n)
    (hk : k.val = p.val * l + q.val) :
    shapeCast ⟨3, ![a, g, l]⟩ x h (ix3 i p q) = x (ix2 i k) :=
  shapeCast_apply x h _ _ (by
    rw [Shape.rowMajor_val_two, Shape.rowMajor_val_three]
    show i.val * n + k.val = (i.val * g + p.val) * l + q.val
    rw [hk, hn]; ring)

/-- [a, g, l] viewed as [a, n] (n = g · l), read at (i, k), is the source at (i, p, q) when k = p · l + q. -/
theorem merge_apply {a g l n : ℕ} (hn : n = g * l) (y : (⟨3, ![a, g, l]⟩ : Shape).Idx → α)
    (h : (⟨3, ![a, g, l]⟩ : Shape).ShapeCasts ⟨2, ![a, n]⟩) (i : Fin a) (k : Fin n) (p : Fin g) (q : Fin l)
    (hk : k.val = p.val * l + q.val) :
    shapeCast ⟨2, ![a, n]⟩ y h (ix2 i k) = y (ix3 i p q) :=
  shapeCast_apply y h _ _ (by
    rw [Shape.rowMajor_val_two, Shape.rowMajor_val_three]
    show (i.val * g + p.val) * l + q.val = i.val * n + k.val
    rw [hk, hn]; ring)

/-- [a, g] viewed as [a, g, 1], read at (i, p, 0), is the source at (i, p). -/
theorem unit_apply {a g : ℕ} (x : (⟨2, ![a, g]⟩ : Shape).Idx → α)
    (h : (⟨2, ![a, g]⟩ : Shape).ShapeCasts ⟨3, ![a, g, 1]⟩) (i : Fin a) (p : Fin g) (u : Fin 1) :
    shapeCast ⟨3, ![a, g, 1]⟩ x h (ix3 i p u) = x (ix2 i p) :=
  shapeCast_apply x h _ _ (by
    have hu : u.val = 0 := by omega
    rw [Shape.rowMajor_val_two, Shape.rowMajor_val_three]
    show i.val * g + p.val = (i.val * g + p.val) * 1 + u.val
    rw [hu, Nat.mul_one, Nat.add_zero])

/-- [a, g, 1] broadcast to [a, g, l], read at (i, p, q), is the source at (i, p, 0). -/
theorem spread_apply {a g l : ℕ} (x : (⟨3, ![a, g, 1]⟩ : Shape).Idx → α)
    (h : (⟨3, ![a, g, 1]⟩ : Shape).Broadcasts ⟨3, ![a, g, l]⟩) (i : Fin a) (p : Fin g) (q : Fin l) :
    broadcastTo ⟨3, ![a, g, l]⟩ x h (ix3 i p q) = x (ix3 i p (0 : Fin 1)) :=
  broadcastTo_apply x h _ _ fun c => match c with
    | ⟨0, _⟩ => by
      show i.val = if a = 1 then 0 else i.val
      split_ifs with h1
      · have := i.isLt; omega
      · rfl
    | ⟨1, _⟩ => by
      show p.val = if g = 1 then 0 else p.val
      split_ifs with h1
      · have := p.isLt; omega
      · rfl
    | ⟨2, _⟩ => by
      show (0 : ℕ) = if (1 : ℕ) = 1 then 0 else q.val
      rw [if_pos rfl]

/-- An [a, g] array spread along a new trailing axis of length l: read at (i, p, q) it is the source at (i, p). -/
theorem column_apply {a g l : ℕ} (x : (⟨2, ![a, g]⟩ : Shape).Idx → α)
    (h1 : (⟨2, ![a, g]⟩ : Shape).ShapeCasts ⟨3, ![a, g, 1]⟩)
    (h2 : (⟨3, ![a, g, 1]⟩ : Shape).Broadcasts ⟨3, ![a, g, l]⟩) (i : Fin a) (p : Fin g) (q : Fin l) :
    broadcastTo ⟨3, ![a, g, l]⟩ (shapeCast ⟨3, ![a, g, 1]⟩ x h1) h2 (ix3 i p q) = x (ix2 i p) :=
  (spread_apply _ h2 i p q).trans (unit_apply x h1 i p 0)

end Cert.Lib.GroupAxis
-- ==== Proof.Payload.lean ====
import proofs.«113205_j29970281792057_2_alg».proof.Proof.Gen.KernelIdeal.Skeleton
import proofs.«113205_j29970281792057_2_alg».proof.Proof.LibGroupAxis
import Idealize.ShloMosaic.Lib.ValueLayout
import Idealize.ShloMosaic.PureOps.Ideal.Laws

noncomputable section

namespace Cert.KernelIdeal.Bridge

open Cert.KernelIdeal Cert.KernelIdeal.Gen Idealize.ShloMosaic Idealize.ShloMosaic.ValueIdx Cert.Lib.GroupAxis

/-- The quantization group (128 consecutive positions) that position kk of a 1024-wide tile lies in. -/
abbrev grp (kk : Fin 1024) : Fin 8 := ⟨kk.val / 128, by omega⟩
/-- Its place inside the group. -/
abbrev lane (kk : Fin 1024) : Fin 128 := ⟨kk.val % 128, by omega⟩

/-! The tile product contracts both operands along their second axis: at output (p, n) and contraction position kk the
    left tile is read at (p, kk) and the weight tile at (n, kk). -/

theorem tile_lhs_0 (i : S256x1024.Idx) (k : dot_S256x1024_S1024x1024_S256x1024_1_1_0_0_n_n.contr.Idx) :
    (dot_S256x1024_S1024x1024_S256x1024_1_1_0_0_n_n.lhsIdx i k 0).val = (i 0).val := by
  unfold DotDims.lhsIdx
  rw [dif_neg (show ¬(0 : Fin S256x1024.rank) ∈ dot_S256x1024_S1024x1024_S256x1024_1_1_0_0_n_n.lhsBatch by decide),
    dif_pos (show (0 : Fin S256x1024.rank) ∈ dot_S256x1024_S1024x1024_S256x1024_1_1_0_0_n_n.lhsNonContracting by decide)]
  rfl
theorem tile_lhs_1 (i : S256x1024.Idx) (k : dot_S256x1024_S1024x1024_S256x1024_1_1_0_0_n_n.contr.Idx) :
    (dot_S256x1024_S1024x1024_S256x1024_1_1_0_0_n_n.lhsIdx i k 1).val = (k ⟨0, by decide⟩).val :=
  dot_S256x1024_S1024x1024_S256x1024_1_1_0_0_n_n.lhsIdx_val_of_single rfl i k
theorem tile_rhs_0 (i : S256x1024.Idx) (k : dot_S256x1024_S1024x1024_S256x1024_1_1_0_0_n_n.contr.Idx) :
    (dot_S256x1024_S1024x1024_S256x1024_1_1_0_0_n_n.rhsIdx i k 0).val = (i 1).val := by
  unfold DotDims.rhsIdx
  rw [dif_neg (show ¬(0 : Fin S1024x1024.rank) ∈ dot_S256x1024_S1024x1024_S256x1024_1_1_0_0_n_n.rhsBatch by decide),
    dif_pos (show (0 : Fin S1024x1024.rank) ∈ dot_S256x1024_S1024x1024_S256x1024_1_1_0_0_n_n.rhsNonContracting by decide)]
  rfl
theorem tile_rhs_1 (i : S256x1024.Idx) (k : dot_S256x1024_S1024x1024_S256x1024_1_1_0_0_n_n.contr.Idx) :
    (dot_S256x1024_S1024x1024_S256x1024_1_1_0_0_n_n.rhsIdx i k 1).val = (k ⟨0, by decide⟩).val :=
  dot_S256x1024_S1024x1024_S256x1024_1_1_0_0_n_n.rhsIdx_val_of_single rfl i k

theorem tile_lhs (p : Fin 256) (n kk : Fin 1024) :
    dot_S256x1024_S1024x1024_S256x1024_1_1_0_0_n_n.lhsIdx (ix2 p n)
      ((contrEquiv1 dot_S256x1024_S1024x1024_S256x1024_1_1_0_0_n_n 1024 rfl rfl).symm kk) = ix2 p kk := by
  have hk := contrEquiv1_symm_val dot_S256x1024_S1024x1024_S256x1024_1_1_0_0_n_n 1024 rfl rfl kk
  funext c; apply Fin.ext
  match c with
  | ⟨0, _⟩ => exact tile_lhs_0 _ _
  | ⟨1, _⟩ => exact (tile_lhs_1 _ _).trans hk

theorem tile_rhs (p : Fin 256) (n kk : Fin 1024) :
    dot_S256x1024_S1024x1024_S256x1024_1_1_0_0_n_n.rhsIdx (ix2 p n)
      ((contrEquiv1 dot_S256x1024_S1024x1024_S256x1024_1_1_0_0_n_n 1024 rfl rfl).symm kk) = ix2 n kk := by
  have hk := contrEquiv1_symm_val dot_S256x1024_S1024x1024_S256x1024_1_1_0_0_n_n 1024 rfl rfl kk
  funext c; apply Fin.ext
  match c with
  | ⟨0, _⟩ => exact tile_rhs_0 _ _
  | ⟨1, _⟩ => exact (tile_rhs_1 _ _).trans hk

/-- What one grid point stores, at row p and column n of its 256 x 1024 output tile: what the tile held before plus the
    tile product of the activations with the DEQUANTIZED weights, the weight of (n, kk) being
    q · s − s · z with the scale s and zero point z of kk's group — the body folds s · z into one product. -/
theorem pay2_apply (s z : FVec Ideal S8x1024 .f32) (q : IVec S1024x1024 32) (a acc : FVec Ideal S256x1024 .f32)
    (p : Fin 256) (n : Fin 1024) :
    k0_pay2 (F := Ideal) s z q a acc (ix2 p n)
      = acc (ix2 p n) + ∑ kk : Fin 1024, a (ix2 p kk) *
          ((((q (ix2 n kk)).toInt : ℝ) : EReal) * s (ix2 (grp kk) n) - s (ix2 (grp kk) n) * z (ix2 (grp kk) n)) := by
  unfold k0_pay2
  dsimp only
  rw [addf_apply, shapeCast_self]
  refine congrArg (acc (ix2 p n) + ·) ((Ideal.matmul_constant_zero_apply _ _ _ _ _).trans ?_)
  rw [← Equiv.sum_comp (contrEquiv1 dot_S256x1024_S1024x1024_S256x1024_1_1_0_0_n_n 1024 rfl rfl).symm]
  refine Finset.sum_congr rfl fun kk _ => ?_
  rw [tile_lhs, tile_rhs]
  congr 1
  rw [merge_apply (by norm_num : 1024 = 8 * 128) _ _ n kk (grp kk) (lane kk)
    (by show kk.val = kk.val / 128 * 128 + kk.val % 128; omega)]
  rw [subf_apply, mulf_apply,
    split_apply (by norm_num : 1024 = 8 * 128) _ _ n (grp kk) (lane kk) kk
      (by show kk.val = kk.val / 128 * 128 + kk.val % 128; omega),
    column_apply, column_apply, mulf_apply, transpose_ix2_apply, transpose_ix2_apply, shapeCast_self, shapeCast_self,
    sitofp_apply]
  rfl

end Cert.KernelIdeal.Bridge

end
-- ==== Proof.Blocks.lean ====
import proofs.«113205_j29970281792057_2_alg».proof.Proof.Gen.KernelIdeal.Frame
import Idealize.ShloMosaic.Lib.ValueLayout
import Idealize.ShloMosaic.Lib.StableHlo.Run

noncomputable section

namespace Cert.KernelIdeal.Bridge

open Cert.KernelIdeal Cert.KernelIdeal.Gen Idealize.ShloMosaic Idealize.ShloMosaic.TcCoe Idealize.ShloMosaic.ValueIdx
  Idealize.SL.Sem

variable (m : (ℓ : Loc nD τ sig) → Buf (Elt Ideal) ℓ) (c : Dev nD)

/-! ## Where each window's block sits

Grid point t is the pair (column tile t / 4, reduction tile t % 4). The activations' block is columns of tile t % 4;
the codes' block is rows of tile t / 4 and columns of tile t % 4; the transposed scales' and zero points' blocks are the
8 groups of tile t % 4 (rows) and the 1024 columns of tile t / 4. Decided over the 16 points. -/

theorem idxA : ∀ t : Fin cfg0.N, win0_0.index t (0 : Fin 2) = 0 ∧ win0_0.index t (1 : Fin 2) = t.val % 4 :=
  (by decide +kernel : ∀ t : Fin grid0.N, _)
theorem idxQ : ∀ t : Fin cfg0.N, win0_1.index t (0 : Fin 2) = t.val / 4 ∧ win0_1.index t (1 : Fin 2) = t.val % 4 :=
  (by decide +kernel : ∀ t : Fin grid0.N, _)
theorem idxS : ∀ t : Fin cfg0.N, win0_2.index t (0 : Fin 2) = t.val % 4 ∧ win0_2.index t (1 : Fin 2) = t.val / 4 :=
  (by decide +kernel : ∀ t : Fin grid0.N, _)
theorem idxZ : ∀ t : Fin cfg0.N, win0_3.index t (0 : Fin 2) = t.val % 4 ∧ win0_3.index t (1 : Fin 2) = t.val / 4 :=
  (by decide +kernel : ∀ t : Fin grid0.N, _)

/-! ## The transposed scales and zero points, as the region finds them -/

theorem V_scalesT : (V m c main_v0 : S32x4096.Idx → EReal)
    = transpose S32x4096 [1, 0] (m ((c : Thread nD τ).loc main_arg2)) transposes_S4096x32_S32x4096_1_0 := by
  dsimp only [Gen.V, Gen.hostOps0]; after_results

theorem V_zerosT : (V m c main_v1 : S32x4096.Idx → EReal)
    = transpose S32x4096 [1, 0] (m ((c : Thread nD τ).loc main_arg3)) transposes_S4096x32_S32x4096_1_0 := by
  dsimp only [Gen.V, Gen.hostOps0]; after_results

/-! ## The blocks, entry by entry -/

/-- Activations: entry (p, kk) of point t's block is A[p, k], k the kk-th position of reduction tile t % 4. -/
theorem blkA (t : Fin cfg0.N) (p : Fin 256) (kk : Fin 1024) (k : Fin 4096) (hk : k.val = 1024 * (t.val % 4) + kk.val) :
    iblk m c 0 t (ix2 p kk) = m ((c : Thread nD τ).loc main_arg0) (ix2 p k) := by
  rw [← V_main_arg0 m c]
  show V m c main_arg0 (((cfg0.win 0).blk t).view.emb (ix2 p kk)) = V m c main_arg0 (ix2 p k)
  refine congrArg _ (funext fun a => Fin.ext ?_)
  obtain ⟨e0, e1⟩ := idxA t
  match a with
  | ⟨0, _⟩ => show win0_0.index t (0 : Fin 2) * 256 + 1 * p.val = p.val; omega
  | ⟨1, _⟩ => show win0_0.index t (1 : Fin 2) * 1024 + 1 * kk.val = k.val; omega

/-- Codes: entry (n, kk) of point t's block is Q[j, k], j the n-th column of column tile t / 4. -/
theorem blkQ (t : Fin cfg0.N) (n kk : Fin 1024) (j k : Fin 4096) (hj : j.val = 1024 * (t.val / 4) + n.val)
    (hk : k.val = 1024 * (t.val % 4) + kk.val) :
    iblk m c 1 t (ix2 n kk) = m ((c : Thread nD τ).loc main_arg1) (ix2 j k) := by
  rw [← V_main_arg1 m c]
  show V m c main_arg1 (((cfg0.win 1).blk t).view.emb (ix2 n kk)) = V m c main_arg1 (ix2 j k)
  refine congrArg _ (funext fun a => Fin.ext ?_)
  obtain ⟨e0, e1⟩ := idxQ t
  match a with
  | ⟨0, _⟩ => show win0_1.index t (0 : Fin 2) * 1024 + 1 * n.val = j.val; omega
  | ⟨1, _⟩ => show win0_1.index t (1 : Fin 2) * 1024 + 1 * kk.val = k.val; omega

/-- Scales: entry (g, n) of point t's block of the TRANSPOSED array is S[j, gg], gg the g-th group of reduction tile t % 4. -/
theorem blkS (t : Fin cfg0.N) (g : Fin 8) (n : Fin 1024) (j : Fin 4096) (gg : Fin 32)
    (hj : j.val = 1024 * (t.val / 4) + n.val) (hg : gg.val = 8 * (t.val % 4) + g.val) :
    iblk m c 2 t (ix2 g n) = m ((c : Thread nD τ).loc main_arg2) (ix2 j gg) := by
  have e : ((cfg0.win 2).blk t).view.emb (ix2 g n) = ix2 gg j := by
    obtain ⟨e0, e1⟩ := idxS t
    funext a; apply Fin.ext
    match a with
    | ⟨0, _⟩ => show win0_2.index t (0 : Fin 2) * 8 + 1 * g.val = gg.val; omega
    | ⟨1, _⟩ => show win0_2.index t (1 : Fin 2) * 1024 + 1 * n.val = j.val; omega
  show V m c main_v0 (((cfg0.win 2).blk t).view.emb (ix2 g n)) = _
  rw [e, V_scalesT, transpose_ix2_apply]

/-- Zero points: the same place in the other transposed array. -/
theorem blkZ (t : Fin cfg0.N) (g : Fin 8) (n : Fin 1024) (j : Fin 4096) (gg : Fin 32)
    (hj : j.val = 1024 * (t.val / 4) + n.val) (hg : gg.val = 8 * (t.val % 4) + g.val) :
    iblk m c 3 t (ix2 g n) = m ((c : Thread nD τ).loc main_arg3) (ix2 j gg) := by
  have e : ((cfg0.win 3).blk t).view.emb (ix2 g n) = ix2 gg j := by
    obtain ⟨e0, e1⟩ := idxZ t
    funext a; apply Fin.ext
    match a with
    | ⟨0, _⟩ => show win0_3.index t (0 : Fin 2) * 8 + 1 * g.val = gg.val; omega
    | ⟨1, _⟩ => show win0_3.index t (1 : Fin 2) * 1024 + 1 * n.val = j.val; omega
  show V m c main_v1 (((cfg0.win 3).blk t).view.emb (ix2 g n)) = _
  rw [e, V_zerosT, transpose_ix2_apply]

end Cert.KernelIdeal.Bridge

end
-- ==== Proof.LibBlockSum.lean ====
/-
  Regrouping a long sum into consecutive blocks.

  A sum over `N = G · L` consecutive positions is the sum, over the `G` blocks of `L` consecutive positions each, of the
  blocks' own sums: position `kk` of block `kb` is position `L · kb + kk` of the whole range. Only commutativity and
  associativity of `+` are used, so the law holds in every additive commutative monoid — in particular on the extended
  reals, where `+` is commutative and associative although it does not cancel and `·` does not distribute at the
  infinities. It is the law that joins a contraction (a matrix product, a long reduction) accumulated block by block
  with the same contraction taken in one piece.

  `sum_blocks` states it over `Fin (G * L)`; `sum_blocks_of_eq` over `Fin N` for a total `N` given with `N = G * L`
  (for literal sizes the equation is `rfl`), the position written `⟨L * kb + kk, _⟩`.
-/
import Mathlib.Logic.Equiv.Fin.Basic
import Mathlib.Data.Fintype.BigOperators

namespace Cert.Lib.BlockSum

open Finset

/-- Position `kk` of block `kb`, among `G · L` consecutive positions cut into `G` blocks of `L`. -/
def blockPos (G L : ℕ) (kb : Fin G) (kk : Fin L) : Fin (G * L) := finProdFinEquiv (kb, kk)

/-- As a number, position `kk` of block `kb` is `kk + L · kb`. -/
theorem blockPos_val (G L : ℕ) (kb : Fin G) (kk : Fin L) : (blockPos G L kb kk).val = kk.val + L * kb.val := rfl

/-- `L · kb + kk` is one of the `N = G · L` positions. -/
theorem blockPos_lt {G L N : ℕ} (hN : N = G * L) (kb : Fin G) (kk : Fin L) : L * kb.val + kk.val < N :=
  calc L * kb.val + kk.val < L * kb.val + L := Nat.add_lt_add_left kk.isLt _
    _ = L * (kb.val + 1) := (Nat.mul_succ L kb.val).symm
    _ ≤ L * G := Nat.mul_le_mul_left L kb.isLt
    _ = N := by rw [hN, Nat.mul_comm]

/-- A sum over `G · L` positions is the sum over the blocks of each block's sum. -/
theorem sum_blocks {M : Type*} [AddCommMonoid M] (G L : ℕ) (f : Fin (G * L) → M) :
    ∑ k, f k = ∑ kb : Fin G, ∑ kk : Fin L, f (blockPos G L kb kk) :=
  (Fintype.sum_equiv finProdFinEquiv (fun p => f (finProdFinEquiv p)) f (fun _ => rfl)).symm.trans
    (Fintype.sum_prod_type _)

/-- The same over `Fin N` with `N = G · L`, the position written `L · kb + kk`. -/
theorem sum_blocks_of_eq {M : Type*} [AddCommMonoid M] {G L N : ℕ} (hN : N = G * L) (f : Fin N → M) :
    ∑ k, f k = ∑ kb : Fin G, ∑ kk : Fin L, f ⟨L * kb.val + kk.val, blockPos_lt hN kb kk⟩ := by
  subst hN
  refine (sum_blocks G L f).trans ?_
  refine Finset.sum_congr rfl fun kb _ => Finset.sum_congr rfl fun kk _ => congrArg f (Fin.ext ?_)
  show kk.val + L * kb.val = L * kb.val + kk.val
  exact Nat.add_comm _ _

end Cert.Lib.BlockSum
-- ==== Proof.Spec.lean ====
/-
  Dequantize-and-multiply, two ways, and why they agree.

  The weights are stored quantized: an integer code Q[j, k] per output column j and input position k, and, per column and
  per GROUP of 128 consecutive positions, a scale S[j, g] and a zero point Z[j, g]. The dequantized weight is
  (Q − Z) · S, and the result is the activations contracted with it over all 4096 positions:

      whole A Q S Z i j  =  Σ_k  A[i, k] · ((Q[j, k] − Z[j, k / 128]) · S[j, k / 128]).

  The tiled computation walks the 4096 positions in 4 tiles of 1024 (8 groups each), and writes the weight in the folded
  form Q · S − S · Z (the product S · Z taken once per group):

      tiled A Q S Z i j  =  Σ_tile Σ_kk  A[i, 1024·tile + kk] · (Q[j, ·] · S[j, 8·tile + kk / 128] − S[j, ·] · Z[j, ·]).

  Two laws join them. Regrouping the sum into consecutive blocks uses only that + is commutative and associative, so it
  holds on the extended reals without any hypothesis. The weight identity Q·S − S·Z = (Q − Z)·S is distributivity, which
  FAILS at the infinities (with S = +∞ and Q = Z the left side is ∞ − ∞ while the right is 0 · ∞ = 0): it needs S and Z
  finite. Q is an integer code, finite by construction.
-/
import proofs.«113205_j29970281792057_2_alg».proof.Proof.LibBlockSum
import Idealize.ShloMosaic.Lib.ValueIdx

noncomputable section

namespace Cert.Dequant

open Idealize.ShloMosaic Idealize.ShloMosaic.ValueIdx Cert.Lib.BlockSum

/-- On finite scale and zero point the folded weight is the textbook one (distributivity in ℝ). -/
theorem weight_eq (q s z : ℝ) :
    (q : EReal) * (s : EReal) - (s : EReal) * (z : EReal) = ((q : EReal) - (z : EReal)) * (s : EReal) := by
  rw [← EReal.coe_mul, ← EReal.coe_mul, ← EReal.coe_sub, ← EReal.coe_sub, ← EReal.coe_mul]
  congr 1; ring

/-- The group of position k among the 4096. -/
abbrev grpOf (k : Fin 4096) : Fin 32 := ⟨k.val / 128, by omega⟩
/-- Position kk of tile kb, among the 4096. -/
abbrev pos (kb : Fin 4) (kk : Fin 1024) : Fin 4096 := ⟨1024 * kb.val + kk.val, blockPos_lt (by norm_num) kb kk⟩
/-- Its group: tile kb holds groups 8·kb … 8·kb + 7. -/
abbrev gpos (kb : Fin 4) (kk : Fin 1024) : Fin 32 := ⟨8 * kb.val + kk.val / 128, by omega⟩

theorem grpOf_pos (kb : Fin 4) (kk : Fin 1024) : grpOf (pos kb kk) = gpos kb kk :=
  Fin.ext (by show (1024 * kb.val + kk.val) / 128 = 8 * kb.val + kk.val / 128; omega)

variable (A : (⟨2, ![256, 4096]⟩ : Shape).Idx → EReal) (Q : (⟨2, ![4096, 4096]⟩ : Shape).Idx → BitVec 32)
  (S Z : (⟨2, ![4096, 32]⟩ : Shape).Idx → EReal)

/-- Activations against the dequantized weights (Q − Z) · S, contracted over all 4096 positions at once. -/
def whole (i : Fin 256) (j : Fin 4096) : EReal :=
  ∑ k : Fin 4096, A (ix2 i k) *
    (((((Q (ix2 j k)).toInt : ℝ) : EReal) - Z (ix2 j (grpOf k))) * S (ix2 j (grpOf k)))

/-- The same contraction tile by tile, the weight in the folded form Q · S − S · Z. -/
def tiled (i : Fin 256) (j : Fin 4096) : EReal :=
  ∑ kb : Fin 4, ∑ kk : Fin 1024, A (ix2 i (pos kb kk)) *
    ((((Q (ix2 j (pos kb kk))).toInt : ℝ) : EReal) * S (ix2 j (gpos kb kk)) - S (ix2 j (gpos kb kk)) * Z (ix2 j (gpos kb kk)))

/-- With every scale and zero point finite, the tiled contraction is the whole one. -/
theorem tiled_eq_whole (hS : ∀ x, ∃ r : ℝ, S x = (r : EReal)) (hZ : ∀ x, ∃ r : ℝ, Z x = (r : EReal))
    (i : Fin 256) (j : Fin 4096) : tiled A Q S Z i j = whole A Q S Z i j := by
  unfold tiled whole
  rw [sum_blocks_of_eq (by norm_num : 4096 = 4 * 1024)]
  refine Finset.sum_congr rfl fun kb _ => Finset.sum_congr rfl fun kk _ => ?_
  show A (ix2 i (pos kb kk)) * _ = A (ix2 i (pos kb kk)) * (_ * S (ix2 j (grpOf (pos kb kk))))
  rw [grpOf_pos]
  obtain ⟨s, hs⟩ := hS (ix2 j (gpos kb kk))
  obtain ⟨z, hz⟩ := hZ (ix2 j (gpos kb kk))
  rw [hs, hz, weight_eq]

end Cert.Dequant

end
-- ==== Proof.Fold.lean ====
import proofs.«113205_j29970281792057_2_alg».proof.Proof.Gen.KernelIdeal.Value
import proofs.«113205_j29970281792057_2_alg».proof.Proof.Payload
import proofs.«113205_j29970281792057_2_alg».proof.Proof.Blocks
import proofs.«113205_j29970281792057_2_alg».proof.Proof.Spec

noncomputable section

namespace Cert.KernelIdeal.Bridge

open Cert.KernelIdeal Cert.KernelIdeal.Gen Cert.KernelIdeal.Value Idealize.ShloMosaic Idealize.ShloMosaic.TcCoe
  Idealize.ShloMosaic.ValueIdx Idealize.SL.Sem Cert.Dequant

variable (m : (ℓ : Loc nD τ sig) → Buf (Elt Ideal) ℓ) (c : Dev nD)

/-- The argument arrays as the kernel is launched on them: activations, integer codes, scales, zero points. -/
abbrev argA : S256x4096.Idx → EReal := m ((c : Thread nD τ).loc main_arg0)
abbrev argQ : S4096x4096.Idx → BitVec 32 := m ((c : Thread nD τ).loc main_arg1)
abbrev argS : S4096x32.Idx → EReal := m ((c : Thread nD τ).loc main_arg2)
abbrev argZ : S4096x32.Idx → EReal := m ((c : Thread nD τ).loc main_arg3)

/-- Grid point t's four input blocks, at their literal shapes: activations [256, 1024], codes [1024, 1024], and the
    transposed scales and zero points [8, 1024]. -/
abbrev ptA (t : Fin cfg0.N) : FVec Ideal S256x1024 .f32 := iblk m c 0 t
abbrev ptQ (t : Fin cfg0.N) : IVec S1024x1024 32 := iblk m c 1 t
abbrev ptS (t : Fin cfg0.N) : FVec Ideal S8x1024 .f32 := iblk m c 2 t
abbrev ptZ (t : Fin cfg0.N) : FVec Ideal S8x1024 .f32 := iblk m c 3 t

/-- What grid point n' adds to entry (p, n) of the output tile it works on: its 1024-wide tile product, the weights
    dequantized in the folded form, all read from the point's own input blocks. (Zero past the grid: never used.) -/
def addend (n' : ℕ) (p : Fin 256) (n : Fin 1024) : EReal :=
  if h : n' < cfg0.N then
    ∑ kk : Fin 1024, ptA m c ⟨n', h⟩ (ix2 p kk) *
      ((((ptQ m c ⟨n', h⟩ (ix2 n kk)).toInt : ℝ) : EReal) * ptS m c ⟨n', h⟩ (ix2 (grp kk) n)
        - ptS m c ⟨n', h⟩ (ix2 (grp kk) n) * ptZ m c ⟨n', h⟩ (ix2 (grp kk) n))
  else 0

/-- The first point of a run stores zero plus its addend. -/
theorem reset_apply (b : ℕ) (h : b < cfg0.N) (i : S256x1024.Idx) :
    reset4 m c b h i = (fun _ => (0 : EReal)) i + addend m c b (i 0) (i 1) := by
  obtain ⟨p, n, rfl⟩ : ∃ (p : Fin 256) (n : Fin 1024), i = ix2 p n := ⟨i 0, i 1, eq_ix2 i⟩
  show reset4 m c b h (ix2 p n) = 0 + addend m c b p n
  unfold reset4 addend
  rw [dif_pos h]
  refine (pay2_apply (ptS m c ⟨b, h⟩) (ptZ m c ⟨b, h⟩) (ptQ m c ⟨b, h⟩) (ptA m c ⟨b, h⟩)
    (k0_pay1 (F := Ideal)) p n).trans ?_
  congr 1
  show Ideal.ofBits .f32 0x00000000#32 = 0
  exact Ideal.ofBits_zero_f32

/-- Every later point of the run adds its addend to what the point before left. -/
theorem step_apply (n' : ℕ) (h : n' < cfg0.N) (acc : S256x1024.Idx → EReal) (i : S256x1024.Idx) :
    step4 m c n' h acc i = acc i + addend m c n' (i 0) (i 1) := by
  obtain ⟨p, n, rfl⟩ : ∃ (p : Fin 256) (n : Fin 1024), i = ix2 p n := ⟨i 0, i 1, eq_ix2 i⟩
  show step4 m c n' h acc (ix2 p n) = acc (ix2 p n) + addend m c n' p n
  unfold step4 addend
  rw [dif_pos h]
  exact pay2_apply (ptS m c ⟨n', h⟩) (ptZ m c ⟨n', h⟩) (ptQ m c ⟨n', h⟩) (ptA m c ⟨n', h⟩) acc p n

/-- The addend of the kb-th point of run r, at entry (p, n), in terms of the argument arrays: the kb-th tile's share of
    the contraction for output column j = 1024 · r + n. -/
theorem addend_apply (r : ℕ) (kb : Fin 4) (ht : 4 * r + kb.val < cfg0.N) (p : Fin 256) (n : Fin 1024) (j : Fin 4096)
    (hj : j.val = 1024 * r + n.val) :
    addend m c (4 * r + kb.val) p n
      = ∑ kk : Fin 1024, argA m c (ix2 p (pos kb kk)) *
          ((((argQ m c (ix2 j (pos kb kk))).toInt : ℝ) : EReal) * argS m c (ix2 j (gpos kb kk))
            - argS m c (ix2 j (gpos kb kk)) * argZ m c (ix2 j (gpos kb kk))) := by
  unfold addend
  rw [dif_pos ht]
  refine Finset.sum_congr rfl fun kk _ => ?_
  have hkb := kb.isLt
  dsimp only [ptA, ptQ, ptS, ptZ]
  rw [blkA m c ⟨4 * r + kb.val, ht⟩ p kk (pos kb kk)
      (by show 1024 * kb.val + kk.val = 1024 * ((4 * r + kb.val) % 4) + kk.val; omega),
    blkQ m c ⟨4 * r + kb.val, ht⟩ n kk j (pos kb kk)
      (by show j.val = 1024 * ((4 * r + kb.val) / 4) + n.val; omega)
      (by show 1024 * kb.val + kk.val = 1024 * ((4 * r + kb.val) % 4) + kk.val; omega),
    blkS m c ⟨4 * r + kb.val, ht⟩ (grp kk) n j (gpos kb kk)
      (by show j.val = 1024 * ((4 * r + kb.val) / 4) + n.val; omega)
      (by show 8 * kb.val + kk.val / 128 = 8 * ((4 * r + kb.val) % 4) + kk.val / 128; omega),
    blkZ m c ⟨4 * r + kb.val, ht⟩ (grp kk) n j (gpos kb kk)
      (by show j.val = 1024 * ((4 * r + kb.val) / 4) + n.val; omega)
      (by show 8 * kb.val + kk.val / 128 = 8 * ((4 * r + kb.val) % 4) + kk.val / 128; omega)]

/-- THE RUN'S FOLD at an entry: after the four points of run r, entry (p, n) of the output tile holds zero plus the
    tiled contraction for output column j = 1024 · r + n. -/
theorem fold_apply (r : ℕ) (hr : 4 * r + 3 < cfg0.N) (p : Fin 256) (n : Fin 1024) (j : Fin 4096)
    (hj : j.val = 1024 * r + n.val) :
    Pipeline.accAt (reset4 m c) (step4 m c) (4 * r) 3 hr (ix2 p n)
      = 0 + tiled (argA m c) (argQ m c) (argS m c) (argZ m c) p j := by
  refine (Pipeline.accAt_add_apply (reset4 m c) (step4 m c) (fun _ => (0 : EReal))
    (fun n' (y : S256x1024.Idx) => addend m c n' (y 0) (y 1)) (4 * r) 3
    (fun h i => reset_apply m c (4 * r) h i) (fun n' h acc i _ _ => step_apply m c n' h acc i) 3 le_rfl hr (ix2 p n)).trans ?_
  congr 1
  rw [Finset.sum_range]
  unfold tiled
  refine Finset.sum_congr rfl fun kb _ => ?_
  show addend m c (4 * r + kb.val) p n = _
  exact addend_apply m c r kb (by have := kb.isLt; omega) p n j hj

end Cert.KernelIdeal.Bridge

end
-- ==== Proof.KernelValue.lean ====
import proofs.«113205_j29970281792057_2_alg».proof.Proof.Fold

noncomputable section

namespace Cert.KernelIdeal.Bridge

open Cert.KernelIdeal Cert.KernelIdeal.Gen Cert.KernelIdeal.Value Idealize.ShloMosaic Idealize.ShloMosaic.TcCoe
  Idealize.ShloMosaic.ValueIdx Idealize.SL.Sem Cert.Dequant

variable (m : (ℓ : Loc nD τ sig) → Buf (Elt Ideal) ℓ) (c : Dev nD)

/-- THE KERNEL'S RESULT, entry by entry. Output column j lies in column tile j / 1024, at place j % 1024; the four grid
    points of that tile's run accumulate, from zero, the four 1024-wide tile products; so entry (i, j) of the result is
    zero plus the tiled contraction of the argument arrays. -/
theorem result_apply (i : Fin 256) (j : Fin 4096) :
    G4 m c (ix2 i j) = 0 + tiled (argA m c) (argQ m c) (argS m c) (argZ m c) i j := by
  have hN : cfg0.N = 16 := N_0
  have hi := i.isLt
  have hj := j.isLt
  have hlt : 4 * run4Of (ix2 i j) + 3 < cfg0.N := by
    show 4 * (4 * (i.val / 256 - 0) + 1 * (j.val / 1024 - 0)) + 3 < cfg0.N
    omega
  have hl : loc4Of (ix2 i j) = ix2 i (⟨j.val % 1024, by omega⟩ : Fin 1024) :=
    funext fun a => Fin.ext (by
      match a with
      | ⟨0, _⟩ => show i.val % 256 = i.val; omega
      | ⟨1, _⟩ => rfl)
  unfold G4
  rw [dif_pos hlt, hl]
  exact fold_apply m c (run4Of (ix2 i j)) hlt i ⟨j.val % 1024, by omega⟩ j
    (by show j.val = 1024 * (4 * (i.val / 256 - 0) + 1 * (j.val / 1024 - 0)) + j.val % 1024; omega)

end Cert.KernelIdeal.Bridge

end
-- ==== Proof.RefRead.lean ====
import proofs.«113205_j29970281792057_2_alg».proof.Proof.Gen.ReferenceIdeal.Read
import proofs.«113205_j29970281792057_2_alg».proof.Proof.Spec
import Idealize.ShloMosaic.Lib.ValueIdx
import Idealize.ShloMosaic.Lib.Pipeline.Value
import Idealize.ShloMosaic.PureOps.Ideal.Laws

noncomputable section

namespace Cert.ReferenceIdeal.Bridge

open Cert.ReferenceIdeal Cert.ReferenceIdeal.Read Idealize.ShloMosaic Idealize.ShloMosaic.ValueIdx Cert.Dequant

/-- The reference, entry by entry, is the whole contraction: it repeats each scale and zero point 128 times along the
    input axis (a broadcast to [4096, 32, 128] reshaped to [4096, 4096], so position k reads group k / 128), subtracts,
    multiplies, and contracts the activations with the result over all 4096 positions. -/
theorem ref_apply (x0 : (⟨S256x4096, .f32⟩ : BufTy).Contents (Elt Ideal)) (x1 : (⟨S4096x4096, .i32⟩ : BufTy).Contents (Elt Ideal))
    (x2 x3 : (⟨S4096x32, .f32⟩ : BufTy).Contents (Elt Ideal)) (i : Fin 256) (j : Fin 4096) :
    val_main_v7 (F := Ideal) x0 x1 x2 x3 (ix2 i j) = whole x0 x1 x2 x3 i j := by
  rw [val_main_v7_apply]
  unfold whole
  refine Finset.sum_congr rfl fun k _ => ?_
  have hj := j.isLt
  have hk := k.isLt
  have el : lidx_main_v7 (ix2 i j) k = ix2 i k :=
    funext fun a => Fin.ext (by match a with | ⟨0, _⟩ => rfl | ⟨1, _⟩ => rfl)
  have er : ridx_main_v7 (ix2 i j) k = ix2 j k :=
    funext fun a => Fin.ext (by match a with | ⟨0, _⟩ => rfl | ⟨1, _⟩ => rfl)
  have eS : idx_main_v0 (idx_main_v1 (ix2 j k)) = ix2 j (grpOf k) :=
    funext fun a => Fin.ext (by
      match a with
      | ⟨0, _⟩ => show (j.val * 4096 + k.val) / 4096 = j.val; omega
      | ⟨1, _⟩ => show (j.val * 4096 + k.val) / 128 % 32 = k.val / 128; omega)
  have eZ : idx_main_v2 (idx_main_v3 (ix2 j k)) = ix2 j (grpOf k) :=
    funext fun a => Fin.ext (by
      match a with
      | ⟨0, _⟩ => show (j.val * 4096 + k.val) / 4096 = j.val; omega
      | ⟨1, _⟩ => show (j.val * 4096 + k.val) / 128 % 32 = k.val / 128; omega)
  rw [el, er, val_main_v6_apply, val_main_v5_apply, val_main_v4_apply, val_main_v3_apply, val_main_v2_apply,
    val_main_v1_apply, val_main_v0_apply, eS, eZ]
  rfl

end Cert.ReferenceIdeal.Bridge

end
-- ==== Proof.Finite.lean ====
import proofs.«113205_j29970281792057_2_alg».proof.Pre_finite_inputs
import proofs.«113205_j29970281792057_2_alg».proof.Proof.Gen.Pre_finite_inputs
import Idealize.ShloMosaic.Lib.ReduceAll
import Idealize.ShloMosaic.Lib.Affine
import Idealize.ShloMosaic.Lib.ValueIdx

noncomputable section

namespace Cert.Finite

open Idealize.ShloMosaic Idealize.ShloMosaic.ValueIdx Cert.Pre_finite_inputs

instance : Subsingleton S_.Idx := ⟨fun a b => funext fun d => d.elim0⟩

/-- An extended real whose absolute value max(x, −x) is below +∞ is a real number: at either infinity the absolute
    value is +∞ itself, which is not below +∞. -/
theorem real_of_abs_lt_top (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- The precondition is the conjunction of three "all entries have absolute value below +∞" tests, of the activations,
    the scales and the zero points; from the last two, every scale and every zero point is a real number. -/
theorem finite_of_pre (x0 : FVec Ideal S256x4096 .f32) (x1 : IVec S4096x4096 32) (x2 x3 : FVec Ideal S4096x32 .f32)
    (h : fn (F := Ideal) x0 x1 x2 x3 = fun _ => 1#1) :
    (∀ i, ∃ r : ℝ, x2 i = (r : EReal)) ∧ (∀ i, ∃ r : ℝ, x3 i = (r : EReal)) := by
  have h0 := congrFun h ix0
  dsimp only [fn] at h0
  obtain ⟨h01, hZ⟩ := IntOp.andi_eq_one.1 h0
  obtain ⟨_, hS⟩ := IntOp.andi_eq_one.1 h01
  exact ⟨fun i => real_of_abs_lt_top (x2 i) (Host.reduce_andi_all _ _ _ _ ix0 hS i),
    fun i => real_of_abs_lt_top (x3 i) (Host.reduce_andi_all _ _ _ _ ix0 hZ i)⟩

end Cert.Finite

end
-- ==== Proof.lean ====
/-
  A fused dequantize-and-multiply against its plain reference: Y = A · Wᵀ over f32[256, 4096] activations, with the
  4096 x 4096 weights stored as integer codes Q and, per output column and per group of 128 consecutive input
  positions, a scale S and a zero point Z.

  The reference dequantizes first, W[j, k] = (Q[j, k] − Z[j, k / 128]) · S[j, k / 128], and contracts once over all
  4096 positions. The kernel walks a 4 x 4 grid (column tile, reduction tile): at each point it dequantizes a
  1024 x 1024 tile in the folded form Q · S − S · Z (the product S · Z taken once per group) and adds the tile product
  into the output tile, which it zeroes at the first reduction tile and writes back after the last.

  On the extended reals the two agree for two reasons (Proof/Spec.lean). The four partial contractions add up to the
  whole one because + is commutative and associative — no hypothesis. The folded weight equals the textbook one by
  distributivity, which fails at the infinities, so this step uses the precondition: every scale and every zero point is
  finite (Proof/Finite.lean reads that off the precondition; the codes are integers, finite by construction; the
  activations' finiteness is not needed).

  The modules: Proof/Payload.lean — what one grid point stores, at an entry; Proof/Blocks.lean — a point's input blocks
  as entries of the argument arrays (the scales and zero points reach the kernel transposed); Proof/Fold.lean — the
  four points of a run, accumulated; Proof/KernelValue.lean — the kernel's result at an entry; Proof/RefRead.lean — the
  reference's result at an entry.
-/
import proofs.«113205_j29970281792057_2_alg».proof.Defs
import proofs.«113205_j29970281792057_2_alg».proof.Proof.Gen.Kernel.Frame
import proofs.«113205_j29970281792057_2_alg».proof.Proof.Gen.KernelIdeal.Value
import proofs.«113205_j29970281792057_2_alg».proof.Proof.Gen.Pre_finite_inputs
import proofs.«113205_j29970281792057_2_alg».proof.Proof.Gen.ReferenceIdeal.Run
import proofs.«113205_j29970281792057_2_alg».proof.Proof.KernelValue
import proofs.«113205_j29970281792057_2_alg».proof.Proof.RefRead
import proofs.«113205_j29970281792057_2_alg».proof.Proof.Finite
import Idealize.ShloMosaic.Adequacy
import Idealize.ShloMosaic.Init

noncomputable section

namespace Cert.Proof

open Idealize.ShloMosaic Idealize.ShloMosaic.ValueIdx Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- With finite scales and zero points, the reference's result is the kernel's, entry by entry: the whole contraction
    against the tiled one accumulated from zero. -/
theorem result_eq (m : (ℓ : Loc Cert.KernelIdeal.nD Cert.KernelIdeal.τ Cert.KernelIdeal.sig) → Buf (Elt Ideal) ℓ)
    (c : Dev Cert.KernelIdeal.nD)
    (hS : ∀ x, ∃ r : ℝ, Cert.KernelIdeal.Bridge.argS m c x = (r : EReal))
    (hZ : ∀ x, ∃ r : ℝ, Cert.KernelIdeal.Bridge.argZ m c x = (r : EReal)) :
    Cert.ReferenceIdeal.Read.val_main_v7 (F := Ideal) (Cert.KernelIdeal.Bridge.argA m c) (Cert.KernelIdeal.Bridge.argQ m c)
      (Cert.KernelIdeal.Bridge.argS m c) (Cert.KernelIdeal.Bridge.argZ m c) = Cert.KernelIdeal.Value.G4 m c := by
  funext y
  obtain ⟨i, j, rfl⟩ : ∃ (i : Fin 256) (j : Fin 4096), y = ix2 i j := ⟨y 0, y 1, eq_ix2 y⟩
  rw [Cert.ReferenceIdeal.Bridge.ref_apply]
  refine ((Cert.KernelIdeal.Bridge.result_apply m c i j).trans ?_).symm
  rw [zero_add, Cert.Dequant.tiled_eq_whole _ _ _ _ hS hZ]

theorem algebraic_KernelIdeal_ReferenceIdeal : algebraic_KernelIdeal_ReferenceIdeal := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨hS, hZ⟩ := Cert.Finite.finite_of_pre _ _ _ _ (hpre c)
  rw [(h c).1, Cert.ReferenceIdeal.Read.val_main_v7_eq]
  simp only [hagree c]
  exact result_eq m c hS hZ

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
